-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S8192x4096 .f32) (main_arg1 : FVec F S4096x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S8192x4096 : Shape := ⟨2, ![8192, 4096]⟩
abbrev S4096x4096 : Shape := ⟨2, ![4096, 4096]⟩
abbrev S512x4096 : Shape := ⟨2, ![512, 4096]⟩
abbrev S512x512 : Shape := ⟨2, ![512, 512]⟩

abbrev nBuf : Space → Nat
  | .hbm => 4
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .bf16⟩
  | .hbm, ⟨3, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S512x4096, .bf16⟩
  | .local _ .vmem, ⟨3, _⟩ => ⟨S512x4096, .bf16⟩
  | .local _ .vmem, ⟨4, _⟩ => ⟨S512x512, .f32⟩
  | .local _ .vmem, ⟨5, _⟩ => ⟨S512x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bitsLt_bf16_f32 : FTy.bits .bf16 < FTy.bits .f32
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S512x512_S512x512_0_0 : ∀ a, (![0, 0] : Fin 2 → Nat) a + S512x512.size a ≤ S512x512.size a
  h_S512x512 : 0 < S512x512.numel
  dot_S512x4096_S512x4096_S512x512_1_1_0_0_n_n_wf : DotDims.WF S512x4096 S512x4096 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .bf16 = 32 ∨ (Rect.block (s := S4096x4096) S512x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S8192x4096.size a
  hwx0_2 : ∀ i : grid0.Coords, EltTy.bits .f32 = 32 ∨ (Rect.block (s := S8192x4096) S512x512.size (cc0_transform_2 i) (hinb0_2 i)).WholeWords (EltTy.packing .f32)

variable [Facts₀]

def dot_S512x4096_S512x4096_S512x512_1_1_0_0_n_n : DotDims S512x4096 S512x4096 S512x512 where
  lhsContracting := [1]
  rhsContracting := [1]
  lhsNonContracting := [0]
  rhsNonContracting := [0]
  lhsBatch := []
  rhsBatch := []
  wf := dot_S512x4096_S512x4096_S512x512_1_1_0_0_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩

abbrev nBuf : Space → Nat
  | .hbm => 3
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.LibDenseT.lean ====
/-
  A matrix times the transpose of another, read at an index.

  For `l : [A, K]` and `r : [B, K]` the product with dimension numbers "contract axis 1 of the left with axis 1 of the
  right, no batch axes" — what `lax.dot_general(l, r, (((1,), (1,)), ((), ())))` lowers to: the logits `q kᵀ` of an attention
  block, with no transpose materialised — is, at the ideal instance and at the element `(a, b)`, the exact sum over `k` of
  `l (a, k) · r (b, k)`: row `a` of the left against ROW `b` of the right. General in `A`, `K`, `B` and in the operands'
  float formats; stated for the matrix unit's product into a zero accumulator and for the host's product.
-/
import Idealize.ShloMosaic.PureOps.Ideal
import Idealize.ShloMosaic.PureOps.Ideal.Laws
import Idealize.ShloMosaic.Lib.ValueIdx

noncomputable section

open scoped BigOperators

namespace Cert.Lib.DenseT

open Idealize.ShloMosaic Idealize.ShloMosaic.ValueIdx

/-- The dimension numbers of `l @ rᵀ` for `l : [A, K]`, `r : [B, K]`. -/
abbrev denseTDims (A K B : Nat)
    (wf : DotDims.WF ⟨2, ![A, K]⟩ ⟨2, ![B, K]⟩ ⟨2, ![A, B]⟩ [1] [1] [0] [0] [] []) :
    DotDims ⟨2, ![A, K]⟩ ⟨2, ![B, K]⟩ ⟨2, ![A, B]⟩ where
  lhsContracting := [1]
  rhsContracting := [1]
  lhsNonContracting := [0]
  rhsNonContracting := [0]
  lhsBatch := []
  rhsBatch := []
  wf := wf

section
variable {A K B : Nat} (wf : DotDims.WF ⟨2, ![A, K]⟩ ⟨2, ![B, K]⟩ ⟨2, ![A, B]⟩ [1] [1] [0] [0] [] [])

/-- The left operand's row is the result's row … -/
theorem denseT_lhs0 (i : (⟨2, ![A, B]⟩ : Shape).Idx) (q : (denseTDims A K B wf).contr.Idx) :
    ((denseTDims A K B wf).lhsIdx i q 0).val = (i 0).val := by
  unfold DotDims.lhsIdx
  rw [dif_neg (show ¬(0 : Fin 2) ∈ (denseTDims A K B wf).lhsBatch from List.not_mem_nil),
    dif_pos (show (0 : Fin 2) ∈ (denseTDims A K B wf).lhsNonContracting from List.mem_singleton.mpr rfl)]
  rfl

/-- … and its column the contraction coordinate. -/
theorem denseT_lhs1 (i : (⟨2, ![A, B]⟩ : Shape).Idx) (q : (denseTDims A K B wf).contr.Idx) :
    ((denseTDims A K B wf).lhsIdx i q 1).val = (q ⟨0, (Nat.one_pos : 0 < 1)⟩).val :=
  (denseTDims A K B wf).lhsIdx_val_of_single rfl i q

/-- The right operand's ROW is the result's column … -/
theorem denseT_rhs0 (i : (⟨2, ![A, B]⟩ : Shape).Idx) (q : (denseTDims A K B wf).contr.Idx) :
    ((denseTDims A K B wf).rhsIdx i q 0).val = (i 1).val := by
  unfold DotDims.rhsIdx
  rw [dif_neg (show ¬(0 : Fin 2) ∈ (denseTDims A K B wf).rhsBatch from List.not_mem_nil),
    dif_pos (show (0 : Fin 2) ∈ (denseTDims A K B wf).rhsNonContracting from List.mem_singleton.mpr rfl)]
  rfl

/-- … and its column the contraction coordinate. -/
theorem denseT_rhs1 (i : (⟨2, ![A, B]⟩ : Shape).Idx) (q : (denseTDims A K B wf).contr.Idx) :
    ((denseTDims A K B wf).rhsIdx i q 1).val = (q ⟨0, (Nat.one_pos : 0 < 1)⟩).val :=
  (denseTDims A K B wf).rhsIdx_val_of_single rfl i q

/-- The contraction's sum, re-indexed by its one coordinate. -/
theorem denseT_sum {φ₁ φ₂ : FTy} (l : FVec Ideal ⟨2, ![A, K]⟩ φ₁) (r : FVec Ideal ⟨2, ![B, K]⟩ φ₂) (a : Fin A) (b : Fin B) :
    (∑ q : (denseTDims A K B wf).contr.Idx,
        l ((denseTDims A K B wf).lhsIdx (ix2 a b) q) * r ((denseTDims A K B wf).rhsIdx (ix2 a b) q))
      = ∑ k : Fin K, l (ix2 a k) * r (ix2 b k) := by
  rw [← Equiv.sum_comp (contrEquiv1 (denseTDims A K B wf) K rfl rfl).symm]
  refine Finset.sum_congr rfl fun k _ => ?_
  have hk := contrEquiv1_symm_val (denseTDims A K B wf) K rfl rfl k
  have el : (denseTDims A K B wf).lhsIdx (ix2 a b) ((contrEquiv1 (denseTDims A K B wf) K rfl rfl).symm k) = ix2 a k :=
    funext fun x => Fin.ext (by
      match x with
      | ⟨0, _⟩ => exact denseT_lhs0 wf _ _
      | ⟨1, _⟩ => exact (denseT_lhs1 wf _ _).trans hk)
  have er : (denseTDims A K B wf).rhsIdx (ix2 a b) ((contrEquiv1 (denseTDims A K B wf) K rfl rfl).symm k) = ix2 b k :=
    funext fun x => Fin.ext (by
      match x with
      | ⟨0, _⟩ => exact denseT_rhs0 wf _ _
      | ⟨1, _⟩ => exact (denseT_rhs1 wf _ _).trans hk)
  rw [el, er]

/-- THE MATRIX UNIT'S PRODUCT `l rᵀ` into a zero accumulator, read at `(a, b)`. -/
theorem denseT_matmul_apply {φ₁ φ₂ : FTy} (prec : Option ContractPrecision)
    (l : FVec Ideal ⟨2, ![A, K]⟩ φ₁) (r : FVec Ideal ⟨2, ![B, K]⟩ φ₂) (a : Fin A) (b : Fin B) :
    FloatOps.matmul (denseTDims A K B wf) prec l r (constant (F := Ideal) ⟨2, ![A, B]⟩ .f32 0x00000000#32) (ix2 a b)
      = ∑ k : Fin K, l (ix2 a k) * r (ix2 b k) := by
  rw [Ideal.matmul_constant_zero_apply]
  exact denseT_sum wf l r a b

/-- THE HOST'S PRODUCT `l rᵀ`, read at `(a, b)`. -/
theorem denseT_dotGeneral_apply {φ₁ φ₂ : FTy} (prec : Option ContractPrecision) (sched : HostSchedule)
    (l : FVec Ideal ⟨2, ![A, K]⟩ φ₁) (r : FVec Ideal ⟨2, ![B, K]⟩ φ₂) (a : Fin A) (b : Fin B) :
    FloatOps.dotGeneral (denseTDims A K B wf) prec sched l r (ix2 a b) = ∑ k : Fin K, l (ix2 a k) * r (ix2 b k) := by
  rw [Ideal.dotGeneral_apply]
  exact denseT_sum wf l r a b

end

end Cert.Lib.DenseT

end
-- ==== Proof.GemmPayload.lean ====
/-
  What one grid point computes, read at an element.

  The body loads a block of 512 activation rows and a block of 512 weight rows (each row 4096 long), narrows the
  activation block to the matrix unit's input format — the identity on extended reals — and multiplies the first by the
  transpose of the second into a zero accumulator. So the stored [512, 512] tile holds at `(p, q)` the sum over `k` of
  (activation row `p`) (k) · (weight row `q`) (k).
-/
import proofs.«179378_j75849122447474_2_alg».proof.Proof.Gen.KernelIdeal.Skeleton
import proofs.«179378_j75849122447474_2_alg».proof.Proof.LibDenseT
import Idealize.ShloMosaic.Lib.Pipeline.Value
import Idealize.ShloMosaic.Lib.ValueIdx

noncomputable section

open scoped BigOperators

namespace Cert.KernelIdeal.Hand

open Cert.KernelIdeal Cert.KernelIdeal.Gen Idealize.ShloMosaic Idealize.ShloMosaic.ValueIdx

/-- The tile a grid point stores, at `(p, q)`: row `p` of the loaded activation block against row `q` of the loaded
    weight block. -/
theorem tile_apply (v0 : Vec Ideal S512x4096 .f32) (v2 : Vec Ideal S512x4096 .bf16) (p q : Fin 512) :
    k0_pay1 (F := Ideal) v0 v2 (ix2 p q) = ∑ k : Fin 4096, v0 (ix2 p k) * v2 (ix2 q k) := by
  unfold k0_pay1
  rw [shapeCast_self]
  exact Cert.Lib.DenseT.denseT_matmul_apply (A := 512) (K := 4096) (B := 512) _ none v0 v2 p q

end Cert.KernelIdeal.Hand

end
-- ==== Proof.GemmSpec.lean ====
/-
  The function both programs compute.

  For an activation `x : [8192, 4096]` and a weight `w : [4096, 4096]` stored row per output feature, the result
  `[8192, 4096]` holds at `(t, o)` the exact sum over `k` of `x (t, k) · w (o, k)`: row `t` of the activation against ROW `o` of
  the weight (`x wᵀ`). On the extended reals the sum is one `Finset` sum, so neither the order of the terms nor a
  tiling of the rows and columns is visible in it.
-/
import Idealize.ShloMosaic.PureOps.Ideal
import Idealize.ShloMosaic.Lib.ValueIdx

noncomputable section

open scoped BigOperators

namespace Cert.Gemm

open Idealize.ShloMosaic Idealize.ShloMosaic.ValueIdx

/-- `x wᵀ`, index by index: entry `(t, o)` is `∑ k, x (t, k) · w (o, k)`. -/
def gemmT (x : FVec Ideal ⟨2, ![8192, 4096]⟩ .f32) (w : FVec Ideal ⟨2, ![4096, 4096]⟩ .f32) :
    FVec Ideal ⟨2, ![8192, 4096]⟩ .f32 :=
  fun i => ∑ k : Fin 4096, x (ix2 (n0 := 8192) (i 0) k) * w (ix2 (n0 := 4096) (i 1) k)

/-- The entry at explicit coordinates. -/
theorem gemmT_apply (x : FVec Ideal ⟨2, ![8192, 4096]⟩ .f32) (w : FVec Ideal ⟨2, ![4096, 4096]⟩ .f32)
    (a : Fin 8192) (b : Fin 4096) :
    gemmT x w (ix2 a b) = ∑ k : Fin 4096, x (ix2 a k) * w (ix2 b k) := rfl

end Cert.Gemm

end
-- ==== Proof.GemmBlocks.lean ====
/-
  From the tiles to the whole array.

  The grid is 16 × 8. At the point with coordinates `(i, j)` the activation window holds rows `512 i … 512 i + 511` of
  the activation, the weight window rows `512 j … 512 j + 511` of the weight (as narrowed before the call, which changes
  nothing on extended reals), and the output window is the tile of rows `512 i …` and columns `512 j …` of the result. The
  stored tile at `(p, q)` is the sum over `k` of activation (512 i + p, k) · weight (512 j + q, k): the specification's
  entry `(512 i + p, 512 j + q)`. The 128 tiles cover the result, so after the run the result array is the specification
  of the two argument arrays.
-/
import proofs.«179378_j75849122447474_2_alg».proof.Proof.Gen.KernelIdeal.Value
import proofs.«179378_j75849122447474_2_alg».proof.Proof.GemmPayload
import proofs.«179378_j75849122447474_2_alg».proof.Proof.GemmSpec
import Idealize.ShloMosaic.Lib.Pipeline.Value
import Idealize.ShloMosaic.Lib.StableHlo.Run
import Idealize.ShloMosaic.Lib.Tactic

noncomputable section

open scoped BigOperators

namespace Cert.KernelIdeal.Hand

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- The three index maps over the grid: the activation window follows the output's row block and the weight window
    the output's column block, both at column block 0; the output's block indices stay below 16 and 8. -/
theorem block_indices : ∀ t : Fin cfg0.N,
    win0_0.index t (0 : Fin 2) = win0_2.index t (0 : Fin 2) ∧ win0_0.index t (1 : Fin 2) = 0
    ∧ win0_1.index t (0 : Fin 2) = win0_2.index t (1 : Fin 2) ∧ win0_1.index t (1 : Fin 2) = 0
    ∧ win0_2.index t (0 : Fin 2) ≤ 15 ∧ win0_2.index t (1 : Fin 2) ≤ 7 :=
  (by decide +kernel : ∀ t : Fin grid0.N, _)

/-- Every tile of the 16 × 8 tiling is some point's. -/
theorem tile_onto : ∀ (q0 : Fin 16) (q1 : Fin 8), ∃ t : Fin cfg0.N, win0_2.index t = ![q0.val, q1.val] :=
  (by decide +kernel : ∀ (q0 : Fin 16) (q1 : Fin 8), ∃ t : Fin grid0.N, win0_2.index t = ![q0.val, q1.val])

/-- The weight as the region finds it: the one host operation before the call narrows it, which is the identity on
    extended reals. -/
theorem weight_at_entry (c : Dev nD) :
    (V m c main_v0 : S4096x4096.Idx → Elt Ideal .bf16) = (m ((c : Thread nD τ).loc main_arg1) : S4096x4096.Idx → Elt Ideal .f32) := by
  dsimp only [Gen.V, Gen.hostOps0]
  after_results
  rfl

/-- The activation window's block at point `t`, at `y`: the activation at row `512 · (row block) + y₀`, column `y₁`. -/
theorem act_block_apply (c : Dev nD) (t : Fin cfg0.N) (y : S512x4096.Idx) (i : S8192x4096.Idx)
    (h0 : (i 0).val = win0_0.index t (0 : Fin 2) * 512 + (y 0).val) (h1 : (i 1).val = win0_0.index t (1 : Fin 2) * 4096 + (y 1).val) :
    (iblk m c 0 t : Vec Ideal S512x4096 .f32) y = (V m c main_arg0 : S8192x4096.Idx → Elt Ideal .f32) i := by
  unfold iblk
  rw [View.read_apply]
  show V m c main_arg0 (((cfg0.win 0).blk t).view.emb y) = V m c main_arg0 i
  refine congrArg _ ?_
  funext a
  apply Fin.ext
  match a with
  | ⟨0, _⟩ => show win0_0.index t (0 : Fin 2) * 512 + 1 * (y 0).val = (i 0).val; omega
  | ⟨1, _⟩ => show win0_0.index t (1 : Fin 2) * 4096 + 1 * (y 1).val = (i 1).val; omega

/-- The weight window's block at point `t`, at `y`: the narrowed weight at row `512 · (row block) + y₀`, column `y₁`. -/
theorem wgt_block_apply (c : Dev nD) (t : Fin cfg0.N) (y : S512x4096.Idx) (i : S4096x4096.Idx)
    (h0 : (i 0).val = win0_1.index t (0 : Fin 2) * 512 + (y 0).val) (h1 : (i 1).val = win0_1.index t (1 : Fin 2) * 4096 + (y 1).val) :
    (iblk m c 1 t : Vec Ideal S512x4096 .bf16) y = (V m c main_v0 : S4096x4096.Idx → Elt Ideal .bf16) i := by
  unfold iblk
  rw [View.read_apply]
  show V m c main_v0 (((cfg0.win 1).blk t).view.emb y) = V m c main_v0 i
  refine congrArg _ ?_
  funext a
  apply Fin.ext
  match a with
  | ⟨0, _⟩ => show win0_1.index t (0 : Fin 2) * 512 + 1 * (y 0).val = (i 0).val; omega
  | ⟨1, _⟩ => show win0_1.index t (1 : Fin 2) * 4096 + 1 * (y 1).val = (i 1).val; omega

/-- WHAT POINT `t` WRITES BACK is tile `t` of the specification of the arrays the region finds. -/
theorem flushed_eq (c : Dev nD) (t : Fin cfg0.N) :
    (dats m 0 c).flushed 2 t
      = ((cfg0.win 2).blk t).view.read (Elt Ideal) (Cert.Gemm.gemmT (V m c main_arg0) (V m c main_v0)) := by
  rw [Value.flushed2]
  unfold out0_2
  rw [View.canon_unit_zero origin]
  simp only [View.ld_unit_zero (S := S512x4096) origin]
  obtain ⟨e0, e1, e2, e3, -, -⟩ := block_indices t
  funext j
  obtain ⟨p, q, rfl⟩ : ∃ (p : Fin 512) (q : Fin 512), j = ix2 p q := ⟨j 0, j 1, eq_ix2 j⟩
  show k0_pay1 (F := Ideal) (iblk m c 0 t) (iblk m c 1 t) (ix2 p q)
    = Cert.Gemm.gemmT (V m c main_arg0) (V m c main_v0) (((cfg0.win 2).blk t).view.emb (ix2 p q))
  refine (tile_apply (iblk m c 0 t) (iblk m c 1 t) p q).trans ?_
  unfold Cert.Gemm.gemmT
  refine Finset.sum_congr rfl fun k _ => ?_
  have r0 : ((((cfg0.win 2).blk t).view.emb (ix2 p q)) 0).val = win0_2.index t (0 : Fin 2) * 512 + 1 * p.val := rfl
  have r1 : ((((cfg0.win 2).blk t).view.emb (ix2 p q)) 1).val = win0_2.index t (1 : Fin 2) * 512 + 1 * q.val := rfl
  rw [act_block_apply m c t (ix2 p k) (ix2 (n0 := 8192) ((((cfg0.win 2).blk t).view.emb (ix2 p q)) 0) k)
      (by show ((((cfg0.win 2).blk t).view.emb (ix2 p q)) 0).val = win0_0.index t (0 : Fin 2) * 512 + p.val; omega)
      (by show k.val = win0_0.index t (1 : Fin 2) * 4096 + k.val; omega),
    wgt_block_apply m c t (ix2 q k) (ix2 (n0 := 4096) ((((cfg0.win 2).blk t).view.emb (ix2 p q)) 1) k)
      (by show ((((cfg0.win 2).blk t).view.emb (ix2 p q)) 1).val = win0_1.index t (0 : Fin 2) * 512 + q.val; omega)
      (by show k.val = win0_1.index t (1 : Fin 2) * 4096 + k.val; omega)]

/-- An index of the result is in point `t`'s tile iff each coordinate is in the tile's range on its axis. -/
theorem mem_tile (t : Fin cfg0.N) (i : S8192x4096.Idx) :
    i ∈ ((cfg0.win 2).blk t).view.set ↔ ∀ a : Fin 2, win0_2.index t a * S512x512.size a ≤ (i a).val ∧ (i a).val < win0_2.index t a * S512x512.size a + S512x512.size a := by
  show i ∈ ((View.whole main_v1).slice (win0_2.rect t)).set ↔ _
  rw [View.set_slice_whole, Rect.mem_set_unit]
  exact Iff.rfl

/-- The tiles cover the result: `(r, s)` lies in the tile of row block `r / 512` and column block `s / 512`. -/
theorem tiles_cover (i : S8192x4096.Idx) :
    ∃ t : Fin cfg0.N, (cfg0.win 2).flush t = true ∧ i ∈ ((cfg0.win 2).blk t).view.set := by
  have hi0 : (i 0).val < 8192 := (i 0).isLt
  have hi1 : (i 1).val < 4096 := (i 1).isLt
  obtain ⟨t, ht⟩ := tile_onto ⟨(i 0).val / 512, by omega⟩ ⟨(i 1).val / 512, by omega⟩
  have q0 : win0_2.index t (0 : Fin 2) = (i 0).val / 512 := congrFun ht 0
  have q1 : win0_2.index t (1 : Fin 2) = (i 1).val / 512 := congrFun ht 1
  refine ⟨t, flush0_2 t, ?_⟩
  rw [mem_tile]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 512 ≤ (i 1).val ∧ (i 1).val < win0_2.index t (1 : Fin 2) * 512 + 512; omega

/-- THE RESULT ARRAY after the run is the specification of the two argument arrays as launched. -/
theorem final (c : Dev nD) :
    (dats m 0 c).arrAt 2 cfg0.N
      = Cert.Gemm.gemmT (m ((c : Thread nD τ).loc main_arg0)) (m ((c : Thread nD τ).loc main_arg1)) := by
  rw [(dats m 0 c).arrAt_eq_of_cover 2 (Cert.Gemm.gemmT (V m c main_arg0) (V m c main_v0))
    (fun t _ => flushed_eq m c t) tiles_cover, V_main_arg0, weight_at_entry]

/-- The run, read: the result at the specification, the arguments unchanged. -/
theorem run : θ_run defs (onTc (τ := τ) (main (F := Ideal))) ⟨m, fun _ => 0, ρ⟩ fun r => ∀ c : Dev nD,
      r.2.mem ((c : Thread nD τ).loc main_v1)
        = Cert.Gemm.gemmT (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Hand

end
-- ==== Proof.GemmRef.lean ====
/-
  The reference's one operation is the specification.

  The reference contracts axis 1 of the activation with axis 1 of the weight (`einsum 'ti,oi->to'`), no batch axes: at
  `(t, o)` the exact sum over `k` of `x (t, k) · w (o, k)`, which is `Cert.Gemm.gemmT` term by term.
-/
import proofs.«179378_j75849122447474_2_alg».proof.Proof.Gen.ReferenceIdeal.Read
import proofs.«179378_j75849122447474_2_alg».proof.Proof.GemmSpec

noncomputable section

open scoped BigOperators

namespace Cert.ReferenceIdeal.Hand

open Cert.ReferenceIdeal Cert.ReferenceIdeal.Gen Cert.ReferenceIdeal.Read Idealize.ShloMosaic Idealize.ShloMosaic.ValueIdx

/-- The host's product of the activation with the transposed weight is `gemmT` of the two arrays. -/
theorem ref_eq (x0 : (⟨S8192x4096, .f32⟩ : BufTy).Contents (Elt Ideal)) (x1 : (⟨S4096x4096, .f32⟩ : BufTy).Contents (Elt Ideal)) :
    val_main_v0 (F := Ideal) x0 x1 = Cert.Gemm.gemmT x0 x1 := by
  funext i
  rw [val_main_v0_apply]
  unfold Cert.Gemm.gemmT
  refine Finset.sum_congr rfl fun k _ => ?_
  have el : lidx_main_v0 i k = ix2 (n0 := 8192) (i 0) k :=
    funext fun a => Fin.ext (by match a with | ⟨0, _⟩ => rfl | ⟨1, _⟩ => rfl)
  have er : ridx_main_v0 i k = ix2 (n0 := 4096) (i 1) k :=
    funext fun a => Fin.ext (by match a with | ⟨0, _⟩ => rfl | ⟨1, _⟩ => rfl)
  rw [el, er]

end Cert.ReferenceIdeal.Hand

end
-- ==== Proof.lean ====
/-
  A tiled matrix product against one whole product, on the extended reals.

  The kernel computes `out[t, o] = ∑ k, input[t, k] · weight[o, k]` over a 16 × 8 grid: each point multiplies a block of
  512 activation rows by the transpose of a block of 512 weight rows (the whole contraction length 4096 at once, into a
  zero accumulator) and stores one 512 × 512 tile of the result. The weight is narrowed once before the call and the
  activation block inside the body; both narrowings are the identity on extended reals. The reference is the one
  contraction `einsum 'ti,oi->to'` of the whole arrays.

  Both results are the same function of the argument arrays (`Cert.Gemm.gemmT`): the reference's operation read at an
  index is that sum (GemmRef), the tile a point stores is that sum at the rows its two input blocks hold (GemmPayload),
  and the tiles cover the result (GemmBlocks). No law beyond the definition of the sum is used, so the finiteness of
  the inputs is never opened. The three frames are the generated runs; the kernel's idealization rewrote nothing.
-/
import proofs.«179378_j75849122447474_2_alg».proof.Defs
import proofs.«179378_j75849122447474_2_alg».proof.Proof.Gen.Kernel
import proofs.«179378_j75849122447474_2_alg».proof.Proof.Gen.Kernel.Frame
import proofs.«179378_j75849122447474_2_alg».proof.Proof.Gen.KernelIdeal
import proofs.«179378_j75849122447474_2_alg».proof.Proof.Gen.KernelIdeal.Frame
import proofs.«179378_j75849122447474_2_alg».proof.Proof.Gen.KernelIdeal.Value
import proofs.«179378_j75849122447474_2_alg».proof.Proof.Gen.ReferenceIdeal
import proofs.«179378_j75849122447474_2_alg».proof.Proof.Gen.ReferenceIdeal.Run
import proofs.«179378_j75849122447474_2_alg».proof.Proof.Gen.ReferenceIdeal.Read
import proofs.«179378_j75849122447474_2_alg».proof.Proof.Gen.Pre_finite_inputs
import proofs.«179378_j75849122447474_2_alg».proof.Proof.GemmBlocks
import proofs.«179378_j75849122447474_2_alg».proof.Proof.GemmRef
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference's run, its result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the result at `x wᵀ` of the argument arrays, which agree. -/
theorem algebraic : Cert.algebraic_KernelIdeal_ReferenceIdeal := by
  intro m ρ m' ρ' _ hagree
  refine ⟨fun c => Cert.Gemm.gemmT (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v0_eq, Cert.ReferenceIdeal.Hand.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
